-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x4096 : Shape := ⟨3, ![16, 12, 4096]⟩
abbrev S64x128 : Shape := ⟨2, ![64, 128]⟩
abbrev S64 : Shape := ⟨1, ![64]⟩
abbrev S_ : Shape := ⟨0, ![]⟩

class Facts : Prop where
  bcast_S_S16x12x4096 : S_.BroadcastsInDim S16x12x4096 (![] : Fin 0 → Fin S16x12x4096.rank)
  reducesTo_S16x12x4096_S_d0_1_2 : S16x12x4096.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x12x4096 .f32) (main_arg1 : FVec F S64x128 .f32) (main_arg2 : FVec F S64 .f32) : IVec S_ 1 :=
  let main_v0 : FVec F S16x12x4096 .f32 := Host.absf main_arg0
  let main_cst : FVec F S_ .f32 := constant S_ .f32 0x7F800000#32
  let main_v1 : FVec F S16x12x4096 .f32 := broadcastInDim S16x12x4096 ![] bcast_S_S16x12x4096 main_cst
  let main_v2 : IVec S16x12x4096 1 := cmpf .olt main_v0 main_v1
  let main_c : IVec S_ 1 := constantI S_ 1 1#1
  let main_v3 : IVec S_ 1 := (fun x v => Host.reduce IntOp.andi x v reducesTo_S16x12x4096_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x12x4096 : Shape := ⟨3, ![16, 12, 4096]⟩
abbrev S64x128 : Shape := ⟨2, ![64, 128]⟩
abbrev S64 : Shape := ⟨1, ![64]⟩
abbrev S128x64 : Shape := ⟨2, ![128, 64]⟩
abbrev S1x64 : Shape := ⟨2, ![1, 64]⟩
abbrev S16x12x32x64 : Shape := ⟨4, ![16, 12, 32, 64]⟩
abbrev S16x32 : Shape := ⟨2, ![16, 32]⟩
abbrev S1x12x4096 : Shape := ⟨3, ![1, 12, 4096]⟩
abbrev S1x12x32x64 : Shape := ⟨4, ![1, 12, 32, 64]⟩
abbrev S384x128 : Shape := ⟨2, ![384, 128]⟩
abbrev S384x64 : Shape := ⟨2, ![384, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x12x4096, .f32⟩
  | .hbm, ⟨1, _⟩ => ⟨S64x128, .f32⟩
  | .hbm, ⟨2, _⟩ => ⟨S64, .f32⟩
  | .hbm, ⟨3, _⟩ => ⟨S128x64, .f32⟩
  | .hbm, ⟨4, _⟩ => ⟨S1x64, .f32⟩
  | .hbm, ⟨5, _⟩ => ⟨S16x12x32x64, .f32⟩
  | .hbm, ⟨6, _⟩ => ⟨S16x32, .f32⟩
  | .local _ .vmem, ⟨0, _⟩ => ⟨S1x12x4096, .f32⟩
  | .local _ .vmem, ⟨1, _⟩ => ⟨S1x12x4096, .f32⟩
  | .local _ .vmem, ⟨2, _⟩ => ⟨S128x64, .f32⟩
  | .local _ .vmem, ⟨3, _⟩ => ⟨S1x64, .f32⟩
  | .local _ .vmem, ⟨4, _⟩ => ⟨S1x12x32x64, .f32⟩
  | .local _ .vmem, ⟨5, _⟩ => ⟨S1x12x32x64, .f32⟩
  | .local _ .vmem, ⟨6, _⟩ => ⟨S16x32, .f32⟩
  | _, _ => ⟨S16x12x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x12x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S64x128_S128x64_1_0 : S64x128.Transposes [1, 0] S128x64
  shapeCasts_S64_S1x64 : S64.ShapeCasts S1x64
  inb_S1x12x4096_S1x12x4096_0_0_0 : ∀ a, (![0, 0, 0] : Fin 3 → Nat) a + S1x12x4096.size a ≤ S1x12x4096.size a
  h_S1x12x4096 : 0 < S1x12x4096.numel
  shapeCasts_S1x12x4096_S384x128 : S1x12x4096.ShapeCasts S384x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S384x64 : S1x64.Broadcasts S384x64
  shapeCasts_S384x64_S1x12x32x64 : S384x64.ShapeCasts S1x12x32x64
  inb_S1x12x32x64_S1x12x32x64_0_0_0_0 : ∀ a, (![0, 0, 0, 0] : Fin 4 → Nat) a + S1x12x32x64.size a ≤ S1x12x32x64.size a
  h_S1x12x32x64 : 0 < S1x12x32x64.numel
  inb_S16x32_S16x32_0_0 : ∀ a, (![0, 0] : Fin 2 → Nat) a + S16x32.size a ≤ S16x32.size a
  h_S16x32 : 0 < S16x32.numel
  dot_S384x128_S128x64_S384x64_1_0_0_1_n_n_wf : DotDims.WF S384x128 S128x64 S384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x4096.size a ≤ S16x12x4096.size a
  hwx0_0 : ∀ i : grid0.Coords, EltTy.bits .f32 = 32 ∨ (Rect.block (s := S16x12x4096) S1x12x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x32x64.size a ≤ S16x12x32x64.size a
  hwx0_3 : ∀ i : grid0.Coords, EltTy.bits .f32 = 32 ∨ (Rect.block (s := S16x12x32x64) S1x12x32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)

variable [Facts₀]

def dot_S384x128_S128x64_S384x64_1_0_0_1_n_n : DotDims S384x128 S128x64 S384x64 where
  lhsContracting := [1]
  rhsContracting := [0]
  lhsNonContracting := [0]
  rhsNonContracting := [1]
  lhsBatch := []
  rhsBatch := []
  wf := dot_S384x128_S128x64_S384x64_1_0_0_1_n_n_wf

abbrev win0_0 : Pipeline.Window sig grid0 :=
  Pipeline.Window.ofSpec (Memref.whole main_arg0) S1x12x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x12x32x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S16x32.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) | ⟨_ + 5, h⟩ => absurd h (Nat.not_lt.2 (Nat.le_add_left _ _))

class Facts : Prop extends Facts₀ where

variable [Facts]
-- ==== ReferenceIdeal.lean ====
abbrev S16x12x4096 : Shape := ⟨3, ![16, 12, 4096]⟩
abbrev S64x128 : Shape := ⟨2, ![64, 128]⟩
abbrev S64 : Shape := ⟨1, ![64]⟩
abbrev S16x12x32x128 : Shape := ⟨4, ![16, 12, 32, 128]⟩
abbrev S16x12x32x64 : Shape := ⟨4, ![16, 12, 32, 64]⟩
abbrev S1x1x1x64 : Shape := ⟨4, ![1, 1, 1, 64]⟩
abbrev S_ : Shape := ⟨0, ![]⟩
abbrev S16x32 : Shape := ⟨2, ![16, 32]⟩

abbrev nBuf : Space → Nat
  | .hbm => 10
  | .vmem => 0
  | .smem => 0
  | _ => 0

abbrev bufTy : (tb : Table) → Fin (tcTables nBuf tb) → BufTy
  | .hbm, ⟨0, _⟩ => ⟨S16x12x4096, .f32⟩
  | .hbm, ⟨1, _⟩ => ⟨S64x128, .f32⟩
  | .hbm, ⟨2, _⟩ => ⟨S64, .f32⟩
  | .hbm, ⟨3, _⟩ => ⟨S16x12x32x128, .f32⟩
  | .hbm, ⟨4, _⟩ => ⟨S16x12x32x64, .f32⟩
  | .hbm, ⟨5, _⟩ => ⟨S1x1x1x64, .f32⟩
  | .hbm, ⟨6, _⟩ => ⟨S16x12x32x64, .f32⟩
  | .hbm, ⟨7, _⟩ => ⟨S16x12x32x64, .f32⟩
  | .hbm, ⟨8, _⟩ => ⟨S_, .f32⟩
  | .hbm, ⟨9, _⟩ => ⟨S16x32, .f32⟩
  | _, _ => ⟨S16x12x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S16x12x4096_S16x12x32x128 : S16x12x4096.ShapeCasts S16x12x32x128
  bcast_S64_S1x1x1x64_3 : S64.BroadcastsInDim S1x1x1x64 (![3] : Fin 1 → Fin S1x1x1x64.rank)
  bcast_S1x1x1x64_S16x12x32x64_0_1_2_3 : S1x1x1x64.BroadcastsInDim S16x12x32x64 (![0, 1, 2, 3] : Fin 4 → Fin S16x12x32x64.rank)
  bcast_S_S16x32 : S_.BroadcastsInDim S16x32 (![] : Fin 0 → Fin S16x32.rank)
  dot_S16x12x32x128_S64x128_S16x12x32x64_3_1_012_0_n_n_wf : DotDims.WF S16x12x32x128 S64x128 S16x12x32x64 [3] [1] [0, 1, 2] [0] [] []

variable [Facts₀]

def dot_S16x12x32x128_S64x128_S16x12x32x64_3_1_012_0_n_n : DotDims S16x12x32x128 S64x128 S16x12x32x64 where
  lhsContracting := [3]
  rhsContracting := [1]
  lhsNonContracting := [0, 1, 2]
  rhsNonContracting := [0]
  lhsBatch := []
  rhsBatch := []
  wf := dot_S16x12x32x128_S64x128_S16x12x32x64_3_1_012_0_n_n_wf

class Facts : Prop extends Facts₀ where

variable [Facts]
-- ==== Proof.Spec.lean ====
/-
  The result both programs compute, as functions of the three argument arrays, index by index, over the extended reals.

  The signal has 16 rows of 12 leads of 4096 samples. Each lead is cut into 32 consecutive windows of 128 samples.
  Token (b, l, n, d) is the inner product of window n of lead l of row b with row d of the 64 x 128 weight, plus entry d
  of the bias. The second result is a 16 x 32 array holding one constant, the window length as a float.
-/
import Idealize.ShloMosaic.PureOps.Ideal
import Idealize.ShloMosaic.Lib.ValueIdx

noncomputable section

namespace Cert.Spec

open Idealize.ShloMosaic

abbrev SSig : Shape := ⟨3, ![16, 12, 4096]⟩
abbrev SWt : Shape := ⟨2, ![64, 128]⟩
abbrev SBias : Shape := ⟨1, ![64]⟩
abbrev STok : Shape := ⟨4, ![16, 12, 32, 64]⟩
abbrev SIvl : Shape := ⟨2, ![16, 32]⟩

/-- Sample k of the window a token index names: row b, lead l, position n * 128 + k. -/
def sigAt (i : STok.Idx) (k : Fin 128) : SSig.Idx := fun a => match a with
  | ⟨0, _⟩ => ⟨(i 0).val, (i 0).isLt⟩
  | ⟨1, _⟩ => ⟨(i 1).val, (i 1).isLt⟩
  | ⟨2, _⟩ => ⟨(i 2).val * 128 + k.val, by
      have h2 : (i 2).val < 32 := (i 2).isLt
      have hk : k.val < 128 := k.isLt
      show (i 2).val * 128 + k.val < 4096
      omega⟩

/-- Entry k of the weight row a token index names. -/
def wtAt (i : STok.Idx) (k : Fin 128) : SWt.Idx := fun a => match a with
  | ⟨0, _⟩ => ⟨(i 3).val, (i 3).isLt⟩
  | ⟨1, _⟩ => ⟨k.val, k.isLt⟩

/-- The bias entry a token index names. -/
def biasAt (i : STok.Idx) : SBias.Idx := fun a => match a with
  | ⟨0, _⟩ => ⟨(i 3).val, (i 3).isLt⟩

/-- The tokens: each window's inner product with each weight row, plus that row's bias. -/
def tokens (x : SSig.Idx → EReal) (w : SWt.Idx → EReal) (b : SBias.Idx → EReal) : STok.Idx → EReal :=
  fun i => (∑ k : Fin 128, x (sigAt i k) * w (wtAt i k)) + b (biasAt i)

/-- The intervals: the float 128 everywhere. -/
def intervals : SIvl.Idx → EReal := fun _ => Ideal.ofBits .f32 0x43000000#32

end Cert.Spec

end
-- ==== Proof.KernelBody.lean ====
/-
  The projection kernel's body at one grid point, and the run of its pipeline.

  The grid has sixteen points, one per batch row. At point t the body reads the signal block of row t (1 x 12 x 4096),
  the transposed weight (128 x 64) and the bias row (1 x 64), and overwrites the whole output block of row t
  (1 x 12 x 32 x 64) with the projected windows plus the bias. At the first point it also fills the whole 16 x 32
  block of intervals with one constant; at every later point it leaves that block alone. The block of intervals is
  written back once, after the last point. No point in between stores into it or writes it back, so what is written
  back is what the first point stored: the induction through those points is the library's, given that the contents
  stated for the block are the same at every point.
-/
import proofs.«178045_g53420803228140_cont_8to1_c_244_5_alg».proof.Proof.Gen.Kernel.Frame
import proofs.«178045_g53420803228140_cont_8to1_c_244_5_alg».proof.Proof.Gen.Kernel.Skeleton
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through: every one is its whole buffer -/

abbrev rSig : Rect S1x12x4096 := Rect.unit (s := S1x12x4096) ![0, 0, 0] S1x12x4096.size inb_S1x12x4096_S1x12x4096_0_0_0
abbrev rWt : Rect S128x64 := Rect.unit (s := S128x64) ![0, 0] S128x64.size inb_S128x64_S128x64_0_0
abbrev rBias : Rect S1x64 := Rect.unit (s := S1x64) ![0, 0] S1x64.size inb_S1x64_S1x64_0_0
abbrev rTok : Rect S1x12x32x64 := Rect.unit (s := S1x12x32x64) ![0, 0, 0, 0] S1x12x32x64.size inb_S1x12x32x64_S1x12x32x64_0_0_0_0
abbrev rIvl : Rect S16x32 := Rect.unit (s := S16x32) ![0, 0] S16x32.size inb_S16x32_S16x32_0_0

/-! ## What the body leaves in the two output blocks -/

/-- The token block after the body: its one store, the projection of the three input blocks. -/
def tokBlock (x0 : Vec F S1x12x4096 .f32) (x1 : Vec F S128x64 .f32) (x2 : Vec F S1x64 .f32) : Vec F S1x12x32x64 .f32 :=
  View.canon [⟨rTok, k0_pay1 (View.ld x0 rSig) (View.ld x1 rWt) (View.ld x2 rBias)⟩]

/-- The block of intervals after the first point's store: the constant everywhere. -/
def ivlBlock : Vec F S16x32 .f32 :=
  View.canon [⟨rIvl, k0_pay2 (F := F)⟩]

theorem tok_cover (p0 : Vec F S1x12x32x64 .f32) (y : S1x12x32x64.Idx) :
    ∃ pc ∈ ([⟨rTok, p0⟩] : List (View.Piece (Elt F) S1x12x32x64 .f32)), y ∈ pc.1.set :=
  View.cover_of_tiled [⟨rTok, p0⟩] S1x12x32x64.size (by rfl) y

theorem ivl_cover (p0 : Vec F S16x32 .f32) (y : S16x32.Idx) :
    ∃ pc ∈ ([⟨rIvl, p0⟩] : List (View.Piece (Elt F) S16x32 .f32)), y ∈ pc.1.set :=
  View.cover_of_tiled [⟨rIvl, p0⟩] S16x32.size (by rfl) y

/-! ## The schedule: which point stores the intervals, where that block is idle, when it is written back -/

/-- The body's one branch is taken at the first grid point only. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem live_sig : ∀ t : Fin cfg0.N, cfg0.idle 0 (grid0.coords t) = false := by decide +kernel
theorem live_wt : ∀ t : Fin cfg0.N, cfg0.idle 1 (grid0.coords t) = false := by decide +kernel
theorem live_bias : ∀ t : Fin cfg0.N, cfg0.idle 2 (grid0.coords t) = false := by decide +kernel
theorem live_tok : ∀ t : Fin cfg0.N, cfg0.idle 3 (grid0.coords t) = false := by decide +kernel
/-- The block of intervals is stored into at the first point, -/
theorem live_ivl : ∀ t : Fin cfg0.N, t.val % 16 = 0 → cfg0.idle 4 (grid0.coords t) = false := by decide +kernel
/-- and at no other. -/
theorem idle_ivl : ∀ t : Fin cfg0.N, ¬ t.val % 16 = 0 → cfg0.idle 4 (grid0.coords t) = true := by decide +kernel
/-- After the first point its buffer always holds something the body stored. -/
theorem stored_ivl : ∀ t : Fin cfg0.N, t.val ≠ 0 → cfg0.fresh 4 t.val = false := by decide +kernel

/-! ## The body on any whole staging buffers -/

set_option maxHeartbeats 1000000 in
/-- At the first point: from the three inputs at their contents and the two outputs at anything, the body leaves the
    inputs as they were, the token block at the projection and the block of intervals at the constant. -/
theorem sound_first (c : Dev nD) (E : Set ℕ) (i : grid0.Coords) (hc : k0_cond1 i = 1#1)
    (arg1 : Memref sig .tc .vmem S1x12x4096 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x12x32x64 .f32) (harg4 : arg4.IsWhole)
    (arg5 : Memref sig .tc .vmem S16x32 .f32) (harg5 : arg5.IsWhole)
    (x0 : Vec F S1x12x4096 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tokBlock x0 x1 x2) ∗ owns (c : Thread nD τ) arg5 fullShare (ivlBlock (F := F))) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tok_cover _)
  iexists _; isplitr
  swap; · iexact H4
  ipureintro
  exact View.read_writes_eq_canon _ _ _ (ivl_cover _)

set_option maxHeartbeats 1000000 in
/-- At a later point: the same for the token block, and the block of intervals handed back as it was found. -/
theorem sound_later (c : Dev nD) (E : Set ℕ) (i : grid0.Coords) (hc : ¬ k0_cond1 i = 1#1)
    (arg1 : Memref sig .tc .vmem S1x12x4096 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x12x32x64 .f32) (harg4 : arg4.IsWhole)
    (arg5 : Memref sig .tc .vmem S16x32 .f32) (harg5 : arg5.IsWhole)
    (x0 : Vec F S1x12x4096 .f32) (x1 : Vec F S128x64 .f32) (x2 : Vec F S1x64 .f32) (x4 : Vec F S16x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4
        ∗ (iprop(owns (c : Thread nD τ) arg1 fullShare x0 ∗ owns (c : Thread nD τ) arg2 fullShare x1 ∗ owns (c : Thread nD τ) arg3 fullShare x2
            ∗ owns (c : Thread nD τ) arg4 fullShare (tokBlock x0 x1 x2) ∗ owns (c : Thread nD τ) arg5 fullShare x4) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tok_cover _)
  iexists f4; isplitr; · ipureintro; exact hf4
  iexact H4

/-! ## The pipeline's proof data -/

/-- On core c: the arrays as the region finds them; after the body at point t each input's buffer at its block, the
    token buffer at the projection of the three blocks, the buffer of intervals at the constant (at every point: the
    first stores it, the others keep it); between points nothing is kept but the scoped buffers and the random-number register, at any contents; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tokBlock (iblk m c 0 t) (iblk m c 1 t) (iblk m c 2 t)
    | ⟨4, _⟩ => ivlBlock (F := F)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_sig (c : Dev nD) (t : Fin cfg0.N) : (dats m 0 c).after 0 t = iblk m c 0 t := by dsimp only [dats]
theorem after_wt (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_tok (c : Dev nD) (t : Fin cfg0.N) :
    (dats m 0 c).after 3 t = tokBlock (iblk m c 0 t) (iblk m c 1 t) (iblk m c 2 t) := by dsimp only [dats]
theorem after_ivl (c : Dev nD) (t : Fin cfg0.N) : (dats m 0 c).after 4 t = ivlBlock (F := F) := by dsimp only [dats]

/-- Each input's current buffer holds its block at every point, fetched there or not. -/
theorem before_sig (c : Dev nD) (t : Fin cfg0.N) (d) : (dats m 0 c).before 0 t d = iblk m c 0 t :=
  before0_0_of m (dats m 0 c) (A_eq m c 0) (after_sig m c) t d
theorem before_wt (c : Dev nD) (t : Fin cfg0.N) (d) : (dats m 0 c).before 1 t d = iblk m c 1 t :=
  before0_1_of m (dats m 0 c) (A_eq m c 1) (after_wt m c) t d
theorem before_bias (c : Dev nD) (t : Fin cfg0.N) (d) : (dats m 0 c).before 2 t d = iblk m c 2 t :=
  before0_2_of m (dats m 0 c) (A_eq m c 2) (after_bias m c) t d

/-- After the first point the buffer of intervals holds the constant when the body runs: it is never fetched, and from
    the first point on every point before t leaves in it what the point before left. -/
theorem before_ivl (c : Dev nD) (t : Fin cfg0.N) (ht : t.val ≠ 0) (d) : (dats m 0 c).before 4 t d = ivlBlock (F := F) := by
  rw [(dats m 0 c).before_out_traj 4 rfl (fun _ _ => rfl) (fun t _ _ _ => by dsimp only [dats]) t.val t rfl d,
    stored_ivl t ht, if_neg Bool.false_ne_true]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point. The inputs' buffers hold their blocks. At the first point the body stores both outputs. At a
    later point the buffer of intervals holds the constant already and the body hands it back untouched: where the block
    is not written back that is all the obligation asks; at the last point, where it is, the contents handed back are the
    constant, which is what is stated there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_sig, before_wt, before_bias]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
      unfold Dat.leavesExact; rw [live_sig t], after_sig]
  rw [show (dats m 0 c).leavesExact 1 t = owns (c : Thread nD τ) (st0_1 t) fullShare ((dats m 0 c).after 1 t) from by
      unfold Dat.leavesExact; rw [live_wt t], after_wt]
  rw [show (dats m 0 c).leavesExact 2 t = owns (c : Thread nD τ) (st0_2 t) fullShare ((dats m 0 c).after 2 t) from by
      unfold Dat.leavesExact; rw [live_bias t], after_bias]
  rw [show (dats m 0 c).leavesExact 3 t = owns (c : Thread nD τ) (st0_3 t) fullShare ((dats m 0 c).after 3 t) from by
      unfold Dat.leavesExact; rw [live_tok t], after_tok]
  have hN : t.val < 16 := lt_of_lt_of_eq t.isLt (show cfg0.N = 16 from N_0)
  by_cases h0 : t.val % 16 = 0
  · rw [show (dats m 0 c).leavesExact 4 t = owns (c : Thread nD τ) (st0_4 t) fullShare ((dats m 0 c).after 4 t) from by
        unfold Dat.leavesExact; rw [live_ivl t h0], after_ivl]
    iintro ⟨HΦ, Ho, ⟨%d0, H0⟩, ⟨%d1, H1⟩, ⟨%d2, H2⟩, ⟨%d3, H3⟩, ⟨%d4, H4⟩⟩
    iapply (sound_first c Set.univ (grid0.coords t) ((first_iff t).mpr h0) _ _ _ _ _ _ _ _ _ _
      (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have ht : t.val ≠ 0 := fun h => h0 (by rw [h])
    have hleave : (dats m 0 c).leavesExact 4 t ⊣⊢ owns (c : Thread nD τ) (st0_4 t) fullShare (ivlBlock (F := F)) := by
      by_cases h15 : t.val % 16 = 15
      · rw [show (dats m 0 c).leavesExact 4 t = owns (c : Thread nD τ) (st0_4 t) fullShare ((dats m 0 c).after 4 t) from by
            unfold Dat.leavesExact; rw [idle_ivl t h0, (flush0_4 t).mpr h15], after_ivl]
      · rw [Dat.leavesExact_idle (dats m 0 c) 4 t (idle_ivl t h0) (by
            cases hf : (cfg0.win 4).flush t
            · rfl
            · exact absurd ((flush0_4 t).mp hf) h15)]
        simp only [before_ivl m c t ht]
        constructor
        · iintro ⟨%d, H⟩; iexact H
        · iintro H; iexists (ivlBlock (F := F)); iexact H
    simp only [before_ivl m c t ht]
    iintro ⟨HΦ, Ho, ⟨%d0, H0⟩, ⟨%d1, H1⟩, ⟨%d2, H2⟩, ⟨%d3, H3⟩, ⟨%d4, H4⟩⟩
    iapply (sound_later c Set.univ (grid0.coords t) (fun h => h0 ((first_iff t).mp h)) _ _ _ _ _ _ _ _ _ _
      (iblk m c 0 t) (iblk m c 1 t) (iblk m c 2 t) (ivlBlock (F := F)) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply hleave.2; iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates, and every final state has each array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealBody.lean ====
/-
  The projection kernel's body at one grid point, and the run of its pipeline.

  The grid has sixteen points, one per batch row. At point t the body reads the signal block of row t (1 x 12 x 4096),
  the transposed weight (128 x 64) and the bias row (1 x 64), and overwrites the whole output block of row t
  (1 x 12 x 32 x 64) with the projected windows plus the bias. At the first point it also fills the whole 16 x 32
  block of intervals with one constant; at every later point it leaves that block alone. The block of intervals is
  written back once, after the last point. No point in between stores into it or writes it back, so what is written
  back is what the first point stored: the induction through those points is the library's, given that the contents
  stated for the block are the same at every point.
-/
import proofs.«178045_g53420803228140_cont_8to1_c_244_5_alg».proof.Proof.Gen.KernelIdeal.Frame
import proofs.«178045_g53420803228140_cont_8to1_c_244_5_alg».proof.Proof.Gen.KernelIdeal.Skeleton
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through: every one is its whole buffer -/

abbrev rSig : Rect S1x12x4096 := Rect.unit (s := S1x12x4096) ![0, 0, 0] S1x12x4096.size inb_S1x12x4096_S1x12x4096_0_0_0
abbrev rWt : Rect S128x64 := Rect.unit (s := S128x64) ![0, 0] S128x64.size inb_S128x64_S128x64_0_0
abbrev rBias : Rect S1x64 := Rect.unit (s := S1x64) ![0, 0] S1x64.size inb_S1x64_S1x64_0_0
abbrev rTok : Rect S1x12x32x64 := Rect.unit (s := S1x12x32x64) ![0, 0, 0, 0] S1x12x32x64.size inb_S1x12x32x64_S1x12x32x64_0_0_0_0
abbrev rIvl : Rect S16x32 := Rect.unit (s := S16x32) ![0, 0] S16x32.size inb_S16x32_S16x32_0_0

/-! ## What the body leaves in the two output blocks -/

/-- The token block after the body: its one store, the projection of the three input blocks. -/
def tokBlock (x0 : Vec F S1x12x4096 .f32) (x1 : Vec F S128x64 .f32) (x2 : Vec F S1x64 .f32) : Vec F S1x12x32x64 .f32 :=
  View.canon [⟨rTok, k0_pay1 (View.ld x0 rSig) (View.ld x1 rWt) (View.ld x2 rBias)⟩]

/-- The block of intervals after the first point's store: the constant everywhere. -/
def ivlBlock : Vec F S16x32 .f32 :=
  View.canon [⟨rIvl, k0_pay2 (F := F)⟩]

theorem tok_cover (p0 : Vec F S1x12x32x64 .f32) (y : S1x12x32x64.Idx) :
    ∃ pc ∈ ([⟨rTok, p0⟩] : List (View.Piece (Elt F) S1x12x32x64 .f32)), y ∈ pc.1.set :=
  View.cover_of_tiled [⟨rTok, p0⟩] S1x12x32x64.size (by rfl) y

theorem ivl_cover (p0 : Vec F S16x32 .f32) (y : S16x32.Idx) :
    ∃ pc ∈ ([⟨rIvl, p0⟩] : List (View.Piece (Elt F) S16x32 .f32)), y ∈ pc.1.set :=
  View.cover_of_tiled [⟨rIvl, p0⟩] S16x32.size (by rfl) y

/-! ## The schedule: which point stores the intervals, where that block is idle, when it is written back -/

/-- The body's one branch is taken at the first grid point only. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem live_sig : ∀ t : Fin cfg0.N, cfg0.idle 0 (grid0.coords t) = false := by decide +kernel
theorem live_wt : ∀ t : Fin cfg0.N, cfg0.idle 1 (grid0.coords t) = false := by decide +kernel
theorem live_bias : ∀ t : Fin cfg0.N, cfg0.idle 2 (grid0.coords t) = false := by decide +kernel
theorem live_tok : ∀ t : Fin cfg0.N, cfg0.idle 3 (grid0.coords t) = false := by decide +kernel
/-- The block of intervals is stored into at the first point, -/
theorem live_ivl : ∀ t : Fin cfg0.N, t.val % 16 = 0 → cfg0.idle 4 (grid0.coords t) = false := by decide +kernel
/-- and at no other. -/
theorem idle_ivl : ∀ t : Fin cfg0.N, ¬ t.val % 16 = 0 → cfg0.idle 4 (grid0.coords t) = true := by decide +kernel
/-- After the first point its buffer always holds something the body stored. -/
theorem stored_ivl : ∀ t : Fin cfg0.N, t.val ≠ 0 → cfg0.fresh 4 t.val = false := by decide +kernel

/-! ## The body on any whole staging buffers -/

set_option maxHeartbeats 1000000 in
/-- At the first point: from the three inputs at their contents and the two outputs at anything, the body leaves the
    inputs as they were, the token block at the projection and the block of intervals at the constant. -/
theorem sound_first (c : Dev nD) (E : Set ℕ) (i : grid0.Coords) (hc : k0_cond1 i = 1#1)
    (arg1 : Memref sig .tc .vmem S1x12x4096 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x12x32x64 .f32) (harg4 : arg4.IsWhole)
    (arg5 : Memref sig .tc .vmem S16x32 .f32) (harg5 : arg5.IsWhole)
    (x0 : Vec F S1x12x4096 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tokBlock x0 x1 x2) ∗ owns (c : Thread nD τ) arg5 fullShare (ivlBlock (F := F))) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tok_cover _)
  iexists _; isplitr
  swap; · iexact H4
  ipureintro
  exact View.read_writes_eq_canon _ _ _ (ivl_cover _)

set_option maxHeartbeats 1000000 in
/-- At a later point: the same for the token block, and the block of intervals handed back as it was found. -/
theorem sound_later (c : Dev nD) (E : Set ℕ) (i : grid0.Coords) (hc : ¬ k0_cond1 i = 1#1)
    (arg1 : Memref sig .tc .vmem S1x12x4096 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x12x32x64 .f32) (harg4 : arg4.IsWhole)
    (arg5 : Memref sig .tc .vmem S16x32 .f32) (harg5 : arg5.IsWhole)
    (x0 : Vec F S1x12x4096 .f32) (x1 : Vec F S128x64 .f32) (x2 : Vec F S1x64 .f32) (x4 : Vec F S16x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4
        ∗ (iprop(owns (c : Thread nD τ) arg1 fullShare x0 ∗ owns (c : Thread nD τ) arg2 fullShare x1 ∗ owns (c : Thread nD τ) arg3 fullShare x2
            ∗ owns (c : Thread nD τ) arg4 fullShare (tokBlock x0 x1 x2) ∗ owns (c : Thread nD τ) arg5 fullShare x4) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tok_cover _)
  iexists f4; isplitr; · ipureintro; exact hf4
  iexact H4

/-! ## The pipeline's proof data -/

/-- On core c: the arrays as the region finds them; after the body at point t each input's buffer at its block, the
    token buffer at the projection of the three blocks, the buffer of intervals at the constant (at every point: the
    first stores it, the others keep it); between points nothing is kept but the scoped buffers and the random-number register, at any contents; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tokBlock (iblk m c 0 t) (iblk m c 1 t) (iblk m c 2 t)
    | ⟨4, _⟩ => ivlBlock (F := F)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_sig (c : Dev nD) (t : Fin cfg0.N) : (dats m 0 c).after 0 t = iblk m c 0 t := by dsimp only [dats]
theorem after_wt (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_tok (c : Dev nD) (t : Fin cfg0.N) :
    (dats m 0 c).after 3 t = tokBlock (iblk m c 0 t) (iblk m c 1 t) (iblk m c 2 t) := by dsimp only [dats]
theorem after_ivl (c : Dev nD) (t : Fin cfg0.N) : (dats m 0 c).after 4 t = ivlBlock (F := F) := by dsimp only [dats]

/-- Each input's current buffer holds its block at every point, fetched there or not. -/
theorem before_sig (c : Dev nD) (t : Fin cfg0.N) (d) : (dats m 0 c).before 0 t d = iblk m c 0 t :=
  before0_0_of m (dats m 0 c) (A_eq m c 0) (after_sig m c) t d
theorem before_wt (c : Dev nD) (t : Fin cfg0.N) (d) : (dats m 0 c).before 1 t d = iblk m c 1 t :=
  before0_1_of m (dats m 0 c) (A_eq m c 1) (after_wt m c) t d
theorem before_bias (c : Dev nD) (t : Fin cfg0.N) (d) : (dats m 0 c).before 2 t d = iblk m c 2 t :=
  before0_2_of m (dats m 0 c) (A_eq m c 2) (after_bias m c) t d

/-- After the first point the buffer of intervals holds the constant when the body runs: it is never fetched, and from
    the first point on every point before t leaves in it what the point before left. -/
theorem before_ivl (c : Dev nD) (t : Fin cfg0.N) (ht : t.val ≠ 0) (d) : (dats m 0 c).before 4 t d = ivlBlock (F := F) := by
  rw [(dats m 0 c).before_out_traj 4 rfl (fun _ _ => rfl) (fun t _ _ _ => by dsimp only [dats]) t.val t rfl d,
    stored_ivl t ht, if_neg Bool.false_ne_true]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at any point. The inputs' buffers hold their blocks. At the first point the body stores both outputs. At a
    later point the buffer of intervals holds the constant already and the body hands it back untouched: where the block
    is not written back that is all the obligation asks; at the last point, where it is, the contents handed back are the
    constant, which is what is stated there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_sig, before_wt, before_bias]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
      unfold Dat.leavesExact; rw [live_sig t], after_sig]
  rw [show (dats m 0 c).leavesExact 1 t = owns (c : Thread nD τ) (st0_1 t) fullShare ((dats m 0 c).after 1 t) from by
      unfold Dat.leavesExact; rw [live_wt t], after_wt]
  rw [show (dats m 0 c).leavesExact 2 t = owns (c : Thread nD τ) (st0_2 t) fullShare ((dats m 0 c).after 2 t) from by
      unfold Dat.leavesExact; rw [live_bias t], after_bias]
  rw [show (dats m 0 c).leavesExact 3 t = owns (c : Thread nD τ) (st0_3 t) fullShare ((dats m 0 c).after 3 t) from by
      unfold Dat.leavesExact; rw [live_tok t], after_tok]
  have hN : t.val < 16 := lt_of_lt_of_eq t.isLt (show cfg0.N = 16 from N_0)
  by_cases h0 : t.val % 16 = 0
  · rw [show (dats m 0 c).leavesExact 4 t = owns (c : Thread nD τ) (st0_4 t) fullShare ((dats m 0 c).after 4 t) from by
        unfold Dat.leavesExact; rw [live_ivl t h0], after_ivl]
    iintro ⟨HΦ, Ho, ⟨%d0, H0⟩, ⟨%d1, H1⟩, ⟨%d2, H2⟩, ⟨%d3, H3⟩, ⟨%d4, H4⟩⟩
    iapply (sound_first c Set.univ (grid0.coords t) ((first_iff t).mpr h0) _ _ _ _ _ _ _ _ _ _
      (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have ht : t.val ≠ 0 := fun h => h0 (by rw [h])
    have hleave : (dats m 0 c).leavesExact 4 t ⊣⊢ owns (c : Thread nD τ) (st0_4 t) fullShare (ivlBlock (F := F)) := by
      by_cases h15 : t.val % 16 = 15
      · rw [show (dats m 0 c).leavesExact 4 t = owns (c : Thread nD τ) (st0_4 t) fullShare ((dats m 0 c).after 4 t) from by
            unfold Dat.leavesExact; rw [idle_ivl t h0, (flush0_4 t).mpr h15], after_ivl]
      · rw [Dat.leavesExact_idle (dats m 0 c) 4 t (idle_ivl t h0) (by
            cases hf : (cfg0.win 4).flush t
            · rfl
            · exact absurd ((flush0_4 t).mp hf) h15)]
        simp only [before_ivl m c t ht]
        constructor
        · iintro ⟨%d, H⟩; iexact H
        · iintro H; iexists (ivlBlock (F := F)); iexact H
    simp only [before_ivl m c t ht]
    iintro ⟨HΦ, Ho, ⟨%d0, H0⟩, ⟨%d1, H1⟩, ⟨%d2, H2⟩, ⟨%d3, H3⟩, ⟨%d4, H4⟩⟩
    iapply (sound_later c Set.univ (grid0.coords t) (fun h => h0 ((first_iff t).mp h)) _ _ _ _ _ _ _ _ _ _
      (iblk m c 0 t) (iblk m c 1 t) (iblk m c 2 t) (ivlBlock (F := F)) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply hleave.2; iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates, and every final state has each array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelPayload.lean ====
/-
  The body's arithmetic read at one entry of the token block.

  The body flattens the signal block 1 x 12 x 4096 to 384 rows of 128 samples: row l * 32 + n is window n of lead l.
  It multiplies that by the 128 x 64 transposed weight into a zero accumulator, adds the bias row to every row, and
  regroups the 384 x 64 product as 1 x 12 x 32 x 64. So entry (0, l, n, d) of the result is the sum over the 128 samples
  of window n of lead l, each times entry (k, d) of the transposed weight, plus entry (0, d) of the bias row. The
  regroupings are read by comparing flat positions; the product by its defining sum over the one contracted axis.
-/
import proofs.«178045_g53420803228140_cont_8to1_c_244_5_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic

/-! ## The indices an entry of the token block reads -/

/-- Entry (0, l, n, d) of the block sits in row l * 32 + n, column d of the product. -/
def rowOf (y : S1x12x32x64.Idx) : S384x64.Idx := fun a => match a with
  | ⟨0, _⟩ => ⟨(y 1).val * 32 + (y 2).val, by
      have h1 : (y 1).val < 12 := (y 1).isLt
      have h2 : (y 2).val < 32 := (y 2).isLt
      show (y 1).val * 32 + (y 2).val < 384
      omega⟩
  | ⟨1, _⟩ => ⟨(y 3).val, (y 3).isLt⟩

/-- Sample k of that row of the flattened signal. -/
def flatAt (y : S1x12x32x64.Idx) (k : Fin 128) : S384x128.Idx := fun a => match a with
  | ⟨0, _⟩ => ⟨(y 1).val * 32 + (y 2).val, by
      have h1 : (y 1).val < 12 := (y 1).isLt
      have h2 : (y 2).val < 32 := (y 2).isLt
      show (y 1).val * 32 + (y 2).val < 384
      omega⟩
  | ⟨1, _⟩ => ⟨k.val, k.isLt⟩

/-- The same sample in the signal block: lead l, position n * 128 + k. -/
def sigIn (y : S1x12x32x64.Idx) (k : Fin 128) : S1x12x4096.Idx := fun a => match a with
  | ⟨0, _⟩ => ⟨0, Nat.one_pos⟩
  | ⟨1, _⟩ => ⟨(y 1).val, (y 1).isLt⟩
  | ⟨2, _⟩ => ⟨(y 2).val * 128 + k.val, by
      have h2 : (y 2).val < 32 := (y 2).isLt
      have hk : k.val < 128 := k.isLt
      show (y 2).val * 128 + k.val < 4096
      omega⟩

/-- Entry (k, d) of the transposed weight. -/
def wtIn (y : S1x12x32x64.Idx) (k : Fin 128) : S128x64.Idx := fun a => match a with
  | ⟨0, _⟩ => ⟨k.val, k.isLt⟩
  | ⟨1, _⟩ => ⟨(y 3).val, (y 3).isLt⟩

/-- Entry (0, d) of the bias row. -/
def biasIn (y : S1x12x32x64.Idx) : S1x64.Idx := fun a => match a with
  | ⟨0, _⟩ => ⟨0, Nat.one_pos⟩
  | ⟨1, _⟩ => ⟨(y 3).val, (y 3).isLt⟩

/-! ## The product's operand indices: the row is kept, the one contracted axis is the sample -/

theorem lhs_row (j : S384x64.Idx) (q : dot_S384x128_S128x64_S384x64_1_0_0_1_n_n.contr.Idx) : (dot_S384x128_S128x64_S384x64_1_0_0_1_n_n.lhsIdx j q 0).val = (j 0).val := by
  unfold DotDims.lhsIdx
  rw [dif_neg (show ¬(0 : Fin S384x128.rank) ∈ dot_S384x128_S128x64_S384x64_1_0_0_1_n_n.lhsBatch by decide), dif_pos (show (0 : Fin S384x128.rank) ∈ dot_S384x128_S128x64_S384x64_1_0_0_1_n_n.lhsNonContracting by decide)]
  rfl
theorem lhs_sample (j : S384x64.Idx) (q : dot_S384x128_S128x64_S384x64_1_0_0_1_n_n.contr.Idx) : (dot_S384x128_S128x64_S384x64_1_0_0_1_n_n.lhsIdx j q 1).val = (q ⟨0, by decide⟩).val :=
  dot_S384x128_S128x64_S384x64_1_0_0_1_n_n.lhsIdx_val_of_single rfl j q
theorem rhs_sample (j : S384x64.Idx) (q : dot_S384x128_S128x64_S384x64_1_0_0_1_n_n.contr.Idx) : (dot_S384x128_S128x64_S384x64_1_0_0_1_n_n.rhsIdx j q 0).val = (q ⟨0, by decide⟩).val :=
  dot_S384x128_S128x64_S384x64_1_0_0_1_n_n.rhsIdx_val_of_single rfl j q
theorem rhs_col (j : S384x64.Idx) (q : dot_S384x128_S128x64_S384x64_1_0_0_1_n_n.contr.Idx) : (dot_S384x128_S128x64_S384x64_1_0_0_1_n_n.rhsIdx j q 1).val = (j 1).val := by
  unfold DotDims.rhsIdx
  rw [dif_neg (show ¬(1 : Fin S128x64.rank) ∈ dot_S384x128_S128x64_S384x64_1_0_0_1_n_n.rhsBatch by decide), dif_pos (show (1 : Fin S128x64.rank) ∈ dot_S384x128_S128x64_S384x64_1_0_0_1_n_n.rhsNonContracting by decide)]
  rfl

/-! ## The three pieces of the payload at an entry -/

/-- The flattened signal at row l * 32 + n, sample k, is the block at lead l, position n * 128 + k. -/
theorem flat_apply (x0 : Vec Ideal S1x12x4096 .f32) (y : S1x12x32x64.Idx) (k : Fin 128) :
    shapeCast S384x128 x0 shapeCasts_S1x12x4096_S384x128 (flatAt y k) = x0 (sigIn y k) := by
  have h1 : (y 1).val < 12 := (y 1).isLt
  have h2 : (y 2).val < 32 := (y 2).isLt
  have hk : k.val < 128 := k.isLt
  refine shapeCast_apply x0 shapeCasts_S1x12x4096_S384x128 (flatAt y k) (sigIn y k) ?_
  rw [Shape.rowMajor_val_three, Shape.rowMajor_val_two]
  show (0 * 12 + (y 1).val) * 4096 + ((y 2).val * 128 + k.val) = ((y 1).val * 32 + (y 2).val) * 128 + k.val
  omega

/-- The product into the zero accumulator, at the entry's row and column: the sum over the window's samples. -/
theorem product_apply (x0 : Vec Ideal S1x12x4096 .f32) (x1 : Vec Ideal S128x64 .f32) (y : S1x12x32x64.Idx) :
    matmul dot_S384x128_S128x64_S384x64_1_0_0_1_n_n none (shapeCast S384x128 x0 shapeCasts_S1x12x4096_S384x128 : FVec Ideal S384x128 .f32)
        (shapeCast S128x64 x1 shapeCasts_S128x64_S128x64 : FVec Ideal S128x64 .f32)
        (constant (F := Ideal) S384x64 .f32 0x00000000#32) (rowOf y)
      = ∑ k : Fin 128, x0 (sigIn y k) * x1 (wtIn y k) := by
  simp only [matmul]
  rw [Ideal.matmul_constant_zero_apply, ← Equiv.sum_comp (ValueIdx.contrEquiv1 dot_S384x128_S128x64_S384x64_1_0_0_1_n_n 128 rfl rfl).symm]
  refine Finset.sum_congr rfl fun k _ => ?_
  have hk := ValueIdx.contrEquiv1_symm_val dot_S384x128_S128x64_S384x64_1_0_0_1_n_n 128 rfl rfl k
  have el : dot_S384x128_S128x64_S384x64_1_0_0_1_n_n.lhsIdx (rowOf y) ((ValueIdx.contrEquiv1 dot_S384x128_S128x64_S384x64_1_0_0_1_n_n 128 rfl rfl).symm k) = flatAt y k := funext fun a => Fin.ext (by
    match a with
    | ⟨0, _⟩ => exact lhs_row _ _
    | ⟨1, _⟩ => exact (lhs_sample _ _).trans hk)
  have er : dot_S384x128_S128x64_S384x64_1_0_0_1_n_n.rhsIdx (rowOf y) ((ValueIdx.contrEquiv1 dot_S384x128_S128x64_S384x64_1_0_0_1_n_n 128 rfl rfl).symm k) = wtIn y k := funext fun a => Fin.ext (by
    match a with
    | ⟨0, _⟩ => exact (rhs_sample _ _).trans hk
    | ⟨1, _⟩ => exact rhs_col _ _)
  rw [el, er, flat_apply, shapeCast_self]

/-- The bias row spread over the 384 rows, at the entry's row and column: the bias at the column. -/
theorem spread_apply (x2 : Vec Ideal S1x64 .f32) (y : S1x12x32x64.Idx) :
    broadcastTo S384x64 (shapeCast S1x64 x2 shapeCasts_S1x64_S1x64) broadcasts_S1x64_S384x64 (rowOf y) = x2 (biasIn y) := by
  rw [shapeCast_self]
  exact broadcastTo_apply x2 broadcasts_S1x64_S384x64 (rowOf y) (biasIn y) (fun a => match a with
    | ⟨0, _⟩ => by show 0 = if (1 : Nat) = 1 then 0 else (y 1).val * 32 + (y 2).val; rw [if_pos rfl]
    | ⟨1, _⟩ => by show (y 3).val = if (64 : Nat) = 1 then 0 else (y 3).val; rw [if_neg (by decide)])

/-! ## The payload at an entry -/

/-- Entry (0, l, n, d) of what the body stores: the window's inner product with column d of the transposed weight,
    plus the bias at d. -/
theorem token_apply (x0 : Vec Ideal S1x12x4096 .f32) (x1 : Vec Ideal S128x64 .f32) (x2 : Vec Ideal S1x64 .f32) (y : S1x12x32x64.Idx) :
    k0_pay1 x0 x1 x2 y = (∑ k : Fin 128, x0 (sigIn y k) * x1 (wtIn y k)) + x2 (biasIn y) := by
  have h0 : (y 0).val < 1 := (y 0).isLt
  show shapeCast S1x12x32x64 (addf (matmul dot_S384x128_S128x64_S384x64_1_0_0_1_n_n none (shapeCast S384x128 x0 shapeCasts_S1x12x4096_S384x128 : FVec Ideal S384x128 .f32)
      (shapeCast S128x64 x1 shapeCasts_S128x64_S128x64 : FVec Ideal S128x64 .f32) (constant (F := Ideal) S384x64 .f32 0x00000000#32))
    (broadcastTo S384x64 (shapeCast S1x64 x2 shapeCasts_S1x64_S1x64 : FVec Ideal S1x64 .f32) broadcasts_S1x64_S384x64 : FVec Ideal S384x64 .f32)) shapeCasts_S384x64_S1x12x32x64 y = _
  rw [shapeCast_apply _ shapeCasts_S384x64_S1x12x32x64 y (rowOf y) (by
    rw [Shape.rowMajor_val_two, Shape.rowMajor_val_four]
    show ((y 1).val * 32 + (y 2).val) * 64 + (y 3).val = (((y 0).val * 12 + (y 1).val) * 32 + (y 2).val) * 64 + (y 3).val
    omega)]
  rw [ValueIdx.addf_apply, product_apply, spread_apply]

/-- What the first point stores into the block of intervals: the constant at every entry. -/
theorem interval_apply (y : S16x32.Idx) : k0_pay2 (F := Ideal) y = Ideal.ofBits .f32 0x43000000#32 := rfl

end Cert.KernelIdeal.Payload

end
-- ==== Proof.KernelValue.lean ====
/-
  The idealized kernel's two result arrays after its run, as the specified functions of the argument arrays.

  Block t of the token array is what point t wrote back: the body's projection of the signal block of row t, the whole
  transposed weight and the whole bias row. Entry (0, l, n, d) of it is the inner product of window n of lead l of row t
  with column d of the transposed weight, which is row d of the weight, plus the bias at d: the specified token
  (t, l, n, d). The sixteen blocks are the sixteen rows, so they cover the array. The array of intervals is one block,
  written back once after the last point, holding the constant.
-/
import proofs.«178045_g53420803228140_cont_8to1_c_244_5_alg».proof.Proof.KernelIdealBody
import proofs.«178045_g53420803228140_cont_8to1_c_244_5_alg».proof.Proof.KernelPayload
import proofs.«178045_g53420803228140_cont_8to1_c_244_5_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Hand Cert.KernelIdeal.Payload
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The index maps: the signal and token windows move with the row, the others stay at block zero -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0
    ∧ win0_4.index t (0 : Fin 2) = 0 ∧ win0_4.index t (1 : Fin 2) = 0 :=
  (by decide +kernel : ∀ t : Fin grid0.N, _)

/-! ## The two arrays the host writes before the region -/

/-- The weight window's array is the weight transposed. -/
theorem wt_entry (c : Dev nD) : (V m c main_call0_v0 : S128x64.Idx → EReal)
    = transpose S128x64 [1, 0] (m ((c.tc : Thread nD τ).loc main_arg1)) transposes_S64x128_S128x64_1_0 := by
  dsimp only [Gen.V, Gen.hostOps0]; after_results; rfl

/-- The bias window's array is the bias as one row. -/
theorem bias_entry (c : Dev nD) : (V m c main_call0_v1 : S1x64.Idx → EReal)
    = shapeCast S1x64 (m ((c.tc : Thread nD τ).loc main_arg2)) shapeCasts_S64_S1x64 := by
  dsimp only [Gen.V, Gen.hostOps0]; after_results; rfl

/-! ## The blocks at a point, read at an entry -/

/-- Entry z of the signal block of point t, as an index of the signal: row t. -/
def sigArr (t : Fin cfg0.N) (z : S1x12x4096.Idx) : S16x12x4096.Idx := fun a => match a with
  | ⟨0, _⟩ => ⟨t.val, lt_of_lt_of_eq t.isLt N_0⟩
  | ⟨1, _⟩ => ⟨(z 1).val, (z 1).isLt⟩
  | ⟨2, _⟩ => ⟨(z 2).val, (z 2).isLt⟩

/-- Entry z of the transposed weight, as an index of the weight. -/
def wtArr (z : S128x64.Idx) : S64x128.Idx := fun a => match a with
  | ⟨0, _⟩ => ⟨(z 1).val, (z 1).isLt⟩
  | ⟨1, _⟩ => ⟨(z 0).val, (z 0).isLt⟩

/-- Entry z of the bias row, as an index of the bias. -/
def biasArr (z : S1x64.Idx) : S64.Idx := fun a => match a with
  | ⟨0, _⟩ => ⟨(z 1).val, (z 1).isLt⟩

/-- Entry y of the token block of point t, as an index of the token array: row t. -/
def tokArr (t : Fin cfg0.N) (y : S1x12x32x64.Idx) : S16x12x32x64.Idx := fun a => match a with
  | ⟨0, _⟩ => ⟨t.val, lt_of_lt_of_eq t.isLt N_0⟩
  | ⟨1, _⟩ => ⟨(y 1).val, (y 1).isLt⟩
  | ⟨2, _⟩ => ⟨(y 2).val, (y 2).isLt⟩
  | ⟨3, _⟩ => ⟨(y 3).val, (y 3).isLt⟩

theorem sig_read (c : Dev nD) (t : Fin cfg0.N) (z : S1x12x4096.Idx) :
    iblk m c 0 t z = m ((c.tc : Thread nD τ).loc main_arg0) (sigArr t z) := by
  obtain ⟨e0, e1, e2, -⟩ := idx_facts t
  have hz : (z 0).val < 1 := (z 0).isLt
  have h : ((cfg0.win 0).blk t).view.emb z = sigArr t z := by
    funext a; apply Fin.ext
    match a with
    | ⟨0, _⟩ => show win0_0.index t (0 : Fin 3) * 1 + 1 * (z 0).val = t.val; omega
    | ⟨1, _⟩ => show win0_0.index t (1 : Fin 3) * 12 + 1 * (z 1).val = (z 1).val; omega
    | ⟨2, _⟩ => show win0_0.index t (2 : Fin 3) * 4096 + 1 * (z 2).val = (z 2).val; omega
  show V m c main_arg0 (((cfg0.win 0).blk t).view.emb z) = _
  rw [h, V_main_arg0]

theorem wt_read (c : Dev nD) (t : Fin cfg0.N) (z : S128x64.Idx) :
    iblk m c 1 t z = m ((c.tc : Thread nD τ).loc main_arg1) (wtArr z) := by
  obtain ⟨-, -, -, e0, e1, -⟩ := idx_facts t
  have h : ((cfg0.win 1).blk t).view.emb z = z := by
    funext a; apply Fin.ext
    match a with
    | ⟨0, _⟩ => show win0_1.index t (0 : Fin 2) * 128 + 1 * (z 0).val = (z 0).val; omega
    | ⟨1, _⟩ => show win0_1.index t (1 : Fin 2) * 64 + 1 * (z 1).val = (z 1).val; omega
  show V m c main_call0_v0 (((cfg0.win 1).blk t).view.emb z) = _
  rw [h, wt_entry]
  exact transpose_apply [1, 0] _ transposes_S64x128_S128x64_1_0 z (wtArr z) (fun b => match b with
    | ⟨0, _⟩ => rfl
    | ⟨1, _⟩ => rfl)

theorem bias_read (c : Dev nD) (t : Fin cfg0.N) (z : S1x64.Idx) :
    iblk m c 2 t z = m ((c.tc : Thread nD τ).loc main_arg2) (biasArr z) := by
  obtain ⟨-, -, -, -, -, e0, e1, -⟩ := idx_facts t
  have hz : (z 0).val < 1 := (z 0).isLt
  have h : ((cfg0.win 2).blk t).view.emb z = z := by
    funext a; apply Fin.ext
    match a with
    | ⟨0, _⟩ => show win0_2.index t (0 : Fin 2) * 1 + 1 * (z 0).val = (z 0).val; omega
    | ⟨1, _⟩ => show win0_2.index t (1 : Fin 2) * 64 + 1 * (z 1).val = (z 1).val; omega
  show V m c main_call0_v1 (((cfg0.win 2).blk t).view.emb z) = _
  rw [h, bias_entry]
  refine shapeCast_apply _ shapeCasts_S64_S1x64 z (biasArr z) ?_
  rw [Shape.rowMajor_val_one, Shape.rowMajor_val_two]
  show (z 1).val = (z 0).val * 64 + (z 1).val
  omega

theorem tok_emb (t : Fin cfg0.N) (y : S1x12x32x64.Idx) : ((cfg0.win 3).blk t).view.emb y = tokArr t y := by
  obtain ⟨-, -, -, -, -, -, -, e0, e1, e2, e3, -⟩ := idx_facts t
  have hy : (y 0).val < 1 := (y 0).isLt
  funext a; apply Fin.ext
  match a with
  | ⟨0, _⟩ => show win0_3.index t (0 : Fin 4) * 1 + 1 * (y 0).val = t.val; omega
  | ⟨1, _⟩ => show win0_3.index t (1 : Fin 4) * 12 + 1 * (y 1).val = (y 1).val; omega
  | ⟨2, _⟩ => show win0_3.index t (2 : Fin 4) * 32 + 1 * (y 2).val = (y 2).val; omega
  | ⟨3, _⟩ => show win0_3.index t (3 : Fin 4) * 64 + 1 * (y 3).val = (y 3).val; omega

/-! ## The entries a block entry reads are the entries the specified token reads -/

theorem sig_idx (t : Fin cfg0.N) (y : S1x12x32x64.Idx) (k : Fin 128) : sigArr t (sigIn y k) = Cert.Spec.sigAt (tokArr t y) k :=
  funext fun a => Fin.ext (by match a with | ⟨0, _⟩ => rfl | ⟨1, _⟩ => rfl | ⟨2, _⟩ => rfl)
theorem wt_idx (t : Fin cfg0.N) (y : S1x12x32x64.Idx) (k : Fin 128) : wtArr (wtIn y k) = Cert.Spec.wtAt (tokArr t y) k :=
  funext fun a => Fin.ext (by match a with | ⟨0, _⟩ => rfl | ⟨1, _⟩ => rfl)
theorem bias_idx (t : Fin cfg0.N) (y : S1x12x32x64.Idx) : biasArr (biasIn y) = Cert.Spec.biasAt (tokArr t y) :=
  funext fun a => Fin.ext (by match a with | ⟨0, _⟩ => rfl)

/-! ## The token array -/

/-- What point t writes back is block t of the specified tokens. -/
theorem flushed_tok (c : Dev nD) (t : Fin cfg0.N) :
    (dats m 0 c).flushed 3 t = ((cfg0.win 3).blk t).view.read (Elt Ideal)
      (Cert.Spec.tokens (m ((c.tc : Thread nD τ).loc main_arg0)) (m ((c.tc : Thread nD τ).loc main_arg1)) (m ((c.tc : Thread nD τ).loc main_arg2))) := by
  show (cfg0.win 3).cut (grid0.coords t) ((dats m 0 c).after 3 t) = _
  rw [after_tok]
  unfold tokBlock
  rw [View.canon_unit_zero hz4]
  simp only [View.ld_unit_zero (S := S1x12x4096) hz3, View.ld_unit_zero (S := S128x64) hz2, View.ld_unit_zero (S := S1x64) hz2]
  funext y
  show k0_pay1 (iblk m c 0 t) (iblk m c 1 t) (iblk m c 2 t) y = Cert.Spec.tokens _ _ _ (((cfg0.win 3).blk t).view.emb y)
  refine (token_apply (iblk m c 0 t) (iblk m c 1 t) (iblk m c 2 t) y).trans ?_
  rw [tok_emb]
  unfold Cert.Spec.tokens
  simp only [sig_read, wt_read, bias_read, sig_idx t, wt_idx t, bias_idx t]

theorem mem_tok (t : Fin cfg0.N) (i : S16x12x32x64.Idx) :
    i ∈ ((cfg0.win 3).blk t).view.set ↔ ∀ a : Fin 4, win0_3.index t a * S1x12x32x64.size a ≤ (i a).val ∧ (i a).val < win0_3.index t a * S1x12x32x64.size a + S1x12x32x64.size a := by
  show i ∈ ((View.whole main_v0_0).slice (win0_3.rect t)).set ↔ _
  rw [View.set_slice_whole, Rect.mem_set_unit]
  exact Iff.rfl

/-- Every token index lies in the block of its row's point, which is written back. -/
theorem cover_tok (i : S16x12x32x64.Idx) : ∃ t : Fin cfg0.N, (cfg0.win 3).flush t = true ∧ i ∈ ((cfg0.win 3).blk t).view.set := by
  have h0 : (i 0).val < 16 := (i 0).isLt
  have h1 : (i 1).val < 12 := (i 1).isLt
  have h2 : (i 2).val < 32 := (i 2).isLt
  have h3 : (i 3).val < 64 := (i 3).isLt
  let t : Fin cfg0.N := ⟨(i 0).val, lt_of_lt_of_eq h0 N_0.symm⟩
  have ht : t.val = (i 0).val := rfl
  obtain ⟨-, -, -, -, -, -, -, e0, e1, e2, e3, -⟩ := idx_facts t
  refine ⟨t, flush0_3 t, (mem_tok t i).mpr fun a => ?_⟩
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 12 ≤ (i 1).val ∧ (i 1).val < win0_3.index t (1 : Fin 4) * 12 + 12; omega
  | ⟨2, _⟩ => show win0_3.index t (2 : Fin 4) * 32 ≤ (i 2).val ∧ (i 2).val < win0_3.index t (2 : Fin 4) * 32 + 32; omega
  | ⟨3, _⟩ => show win0_3.index t (3 : Fin 4) * 64 ≤ (i 3).val ∧ (i 3).val < win0_3.index t (3 : Fin 4) * 64 + 64; omega

/-- The token array after the run. -/
theorem final_tok (c : Dev nD) : (dats m 0 c).arrAt 3 cfg0.N
    = Cert.Spec.tokens (m ((c.tc : Thread nD τ).loc main_arg0)) (m ((c.tc : Thread nD τ).loc main_arg1)) (m ((c.tc : Thread nD τ).loc main_arg2)) :=
  (dats m 0 c).arrAt_eq_of_cover 3 _ (fun t _ => flushed_tok m c t) cover_tok

/-! ## The array of intervals -/

/-- What a write-back of the block of intervals writes is the specified constant block. -/
theorem flushed_ivl (c : Dev nD) (t : Fin cfg0.N) :
    (dats m 0 c).flushed 4 t = ((cfg0.win 4).blk t).view.read (Elt Ideal) Cert.Spec.intervals := by
  show (cfg0.win 4).cut (grid0.coords t) ((dats m 0 c).after 4 t) = _
  rw [after_ivl]
  unfold ivlBlock
  rw [View.canon_unit_zero hz2]
  funext y
  rfl

theorem mem_ivl (t : Fin cfg0.N) (i : S16x32.Idx) :
    i ∈ ((cfg0.win 4).blk t).view.set ↔ ∀ a : Fin 2, win0_4.index t a * S16x32.size a ≤ (i a).val ∧ (i a).val < win0_4.index t a * S16x32.size a + S16x32.size a := by
  show i ∈ ((View.whole main_v0_1).slice (win0_4.rect t)).set ↔ _
  rw [View.set_slice_whole, Rect.mem_set_unit]
  exact Iff.rfl

/-- The one block is the whole array, and the last point writes it back. -/
theorem cover_ivl (i : S16x32.Idx) : ∃ t : Fin cfg0.N, (cfg0.win 4).flush t = true ∧ i ∈ ((cfg0.win 4).blk t).view.set := by
  have h0 : (i 0).val < 16 := (i 0).isLt
  have h1 : (i 1).val < 32 := (i 1).isLt
  let t : Fin cfg0.N := ⟨15, lt_of_lt_of_eq (by decide : 15 < 16) N_0.symm⟩
  obtain ⟨-, -, -, -, -, -, -, -, -, -, -, e0, e1⟩ := idx_facts t
  refine ⟨t, (flush0_4 t).mpr rfl, (mem_ivl t i).mpr fun a => ?_⟩
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 32 ≤ (i 1).val ∧ (i 1).val < win0_4.index t (1 : Fin 2) * 32 + 32; omega

/-- The array of intervals after the run. -/
theorem final_ivl (c : Dev nD) : (dats m 0 c).arrAt 4 cfg0.N = Cert.Spec.intervals :=
  (dats m 0 c).arrAt_eq_of_cover 4 _ (fun t _ => flushed_ivl m c t) cover_ivl

/-! ## The run, read -/

/-- Every weakly fair execution of the idealized kernel terminates with its two results at the specified functions of
    the arguments, and the arguments unchanged. -/
theorem run : θ_run defs (onTc (τ := τ) (main (F := Ideal))) ⟨m, fun _ => 0, ρ⟩ fun r => ∀ c : Dev nD,
      r.2.mem ((c.tc : Thread nD τ).loc main_v0_0)
        = Cert.Spec.tokens (m ((c.tc : Thread nD τ).loc main_arg0)) (m ((c.tc : Thread nD τ).loc main_arg1)) (m ((c.tc : Thread nD τ).loc main_arg2))
      ∧ r.2.mem ((c.tc : Thread nD τ).loc main_v0_1) = Cert.Spec.intervals
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final_tok m c), ((h c).1 4).trans (final_ivl m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KValue

end
-- ==== Proof.RefValue.lean ====
/-
  The reference computes the specified tokens and intervals.

  The reference regroups each lead's 4096 samples as 32 windows of 128, contracts the window axis against the weight's
  second axis, and adds the bias along the last axis. Reading the regrouping at an index: flat position
  ((b * 12 + l) * 32 + n) * 128 + k of the regrouped array is sample n * 128 + k of lead l of row b.
-/
import proofs.«178045_g53420803228140_cont_8to1_c_244_5_alg».proof.Proof.Gen.ReferenceIdeal.Read
import proofs.«178045_g53420803228140_cont_8to1_c_244_5_alg».proof.Proof.Spec

noncomputable section

namespace Cert.ReferenceIdeal.RefValue

open Cert.ReferenceIdeal Cert.ReferenceIdeal.Gen Cert.ReferenceIdeal.Read Idealize.ShloMosaic

/-- The regrouped signal at (b, l, n, k) is the signal at (b, l, n * 128 + k). -/
theorem window_idx (i : S16x12x32x64.Idx) (k : Fin 128) : idx_main_v0 (lidx_main_v1 i k) = Cert.Spec.sigAt i k := by
  have h0 : (i 0).val < 16 := (i 0).isLt
  have h1 : (i 1).val < 12 := (i 1).isLt
  have h2 : (i 2).val < 32 := (i 2).isLt
  have hk : k.val < 128 := k.isLt
  funext a; apply Fin.ext
  match a with
  | ⟨0, _⟩ =>
    show ((((i 0).val * 12 + (i 1).val) * 32 + (i 2).val) * 128 + k.val) / 49152 = (i 0).val
    omega
  | ⟨1, _⟩ =>
    show ((((i 0).val * 12 + (i 1).val) * 32 + (i 2).val) * 128 + k.val) / 4096 % 12 = (i 1).val
    omega
  | ⟨2, _⟩ =>
    show ((((i 0).val * 12 + (i 1).val) * 32 + (i 2).val) * 128 + k.val) % 4096 = (i 2).val * 128 + k.val
    omega

theorem weight_idx (i : S16x12x32x64.Idx) (k : Fin 128) : ridx_main_v1 i k = Cert.Spec.wtAt i k :=
  funext fun a => Fin.ext (by match a with | ⟨0, _⟩ => rfl | ⟨1, _⟩ => rfl)

theorem bias_idx (i : S16x12x32x64.Idx) : idx_main_v2 (idx_main_v3 i) = Cert.Spec.biasAt i :=
  funext fun a => Fin.ext (by match a with | ⟨0, _⟩ => rfl)

/-- The reference's first result is the specified tokens. -/
theorem tokens_eq (x0 : (⟨S16x12x4096, .f32⟩ : BufTy).Contents (Elt Ideal)) (x1 : (⟨S64x128, .f32⟩ : BufTy).Contents (Elt Ideal))
    (x2 : (⟨S64, .f32⟩ : BufTy).Contents (Elt Ideal)) :
    val_main_v4 (F := Ideal) x0 x1 x2 = Cert.Spec.tokens x0 x1 x2 := by
  funext i
  rw [val_main_v4_apply, val_main_v1_apply, val_main_v3_apply, val_main_v2_apply]
  simp only [val_main_v0_apply, window_idx, weight_idx, bias_idx, Ideal.addf_def]
  rfl

/-- The reference's second result is the specified intervals. -/
theorem intervals_eq : val_main_v5 (F := Ideal) = Cert.Spec.intervals := by
  funext i
  rw [val_main_v5_apply, val_main_cst_apply]
  rfl

end Cert.ReferenceIdeal.RefValue

end
-- ==== Proof.lean ====
/-
  The five claims about the window-projection kernel.

  Both kernel programs run, with their argument arrays unchanged: the body stores the whole token block at every grid
  point and the block of intervals at the first point only, and that block, written back once after the last point, then
  still holds what the first point stored. The reference runs as a straight line of host operations. No operation of the
  kernel was rewritten when it was idealized, so the idealization has nothing to preserve. At the ideal values the kernel's
  token array and the reference's are the same sums: each window's inner product with each weight row, plus that row's
  bias; and both arrays of intervals hold the same constant. The sums have the same terms in the same order, so no law of
  arithmetic is used and the finiteness of the inputs is never needed.
-/
import proofs.«178045_g53420803228140_cont_8to1_c_244_5_alg».proof.Defs
import proofs.«178045_g53420803228140_cont_8to1_c_244_5_alg».proof.Proof.Gen.Kernel
import proofs.«178045_g53420803228140_cont_8to1_c_244_5_alg».proof.Proof.Gen.KernelIdeal
import proofs.«178045_g53420803228140_cont_8to1_c_244_5_alg».proof.Proof.Gen.ReferenceIdeal
import proofs.«178045_g53420803228140_cont_8to1_c_244_5_alg».proof.Proof.Gen.Pre_finite_inputs
import proofs.«178045_g53420803228140_cont_8to1_c_244_5_alg».proof.Proof.Gen.ReferenceIdeal.Run
import proofs.«178045_g53420803228140_cont_8to1_c_244_5_alg».proof.Proof.Gen.ReferenceIdeal.Read
import proofs.«178045_g53420803228140_cont_8to1_c_244_5_alg».proof.Proof.Spec
import proofs.«178045_g53420803228140_cont_8to1_c_244_5_alg».proof.Proof.KernelBody
import proofs.«178045_g53420803228140_cont_8to1_c_244_5_alg».proof.Proof.KernelIdealBody
import proofs.«178045_g53420803228140_cont_8to1_c_244_5_alg».proof.Proof.KernelValue
import proofs.«178045_g53420803228140_cont_8to1_c_244_5_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Hand.frame m ρ

/-- So does the idealized kernel. -/
theorem frame_kernel_ideal : Cert.frame_KernelIdeal := fun m ρ _ => Cert.KernelIdeal.Hand.frame m ρ

/-- The reference's run with its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- From arguments that agree, the idealized kernel ends with the specified tokens and intervals of its arguments, and the
    reference with the specified tokens and intervals of its own: the same arrays. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, Cert.ReferenceIdeal.RefValue.tokens_eq,
      (hagree c).1, (hagree c).2.1, (hagree c).2.2]
  · rw [(h c).2.1, Cert.ReferenceIdeal.Read.val_main_v5_eq, Cert.ReferenceIdeal.RefValue.intervals_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
